-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_arg0)) (v3 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_arg1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32x1024 : Shape := ⟨3, ![1024, 32, 1024]⟩
abbrev S32768x1023 : Shape := ⟨2, ![32768, 1023]⟩
abbrev S_ : Shape := ⟨0, ![]⟩

class Facts : Prop where
  bcast_S_S1024x32x1024 : S_.BroadcastsInDim S1024x32x1024 (![] : Fin 0 → Fin S1024x32x1024.rank)
  reducesTo_S1024x32x1024_S_d0_1_2 : S1024x32x1024.ReducesTo [0, 1, 2] S_
  h_S_ : 0 < S_.numel

variable [Facts]

def fn {F : FTy → Type} [FloatOps F] (main_arg0 : FVec F S1024x32x1024 .f32) (main_arg1 : FVec F S1024x32x1024 .f32) (main_arg2 : IVec S32768x1023 1) : IVec S_ 1 :=
  let main_v0 : FVec F S1024x32x1024 .f32 := Host.absf main_arg0
  let main_cst : FVec F S_ .f32 := constant S_ .f32 0x7F800000#32
  let main_v1 : FVec F S1024x32x1024 .f32 := broadcastInDim S1024x32x1024 ![] bcast_S_S1024x32x1024 main_cst
  let main_v2 : IVec S1024x32x1024 1 := cmpf .olt main_v0 main_v1
  let main_c : IVec S_ 1 := constantI S_ 1 1#1
  let main_v3 : IVec S_ 1 := (fun x v => Host.reduce IntOp.andi x v reducesTo_S1024x32x1024_S_d0_1_2 h_S_) main_v2 main_c
  let main_v4 : FVec F S1024x32x1024 .f32 := Host.absf main_arg1
  let main_cst_0 : FVec F S_ .f32 := constant S_ .f32 0x7F800000#32
  let main_v5 : FVec F S1024x32x1024 .f32 := broadcastInDim S1024x32x1024 ![] bcast_S_S1024x32x1024 main_cst_0
  let main_v6 : IVec S1024x32x1024 1 := cmpf .olt main_v4 main_v5
  let main_c_1 : IVec S_ 1 := constantI S_ 1 1#1
  let main_v7 : IVec S_ 1 := (fun x v => Host.reduce IntOp.andi x v reducesTo_S1024x32x1024_S_d0_1_2 h_S_) main_v6 main_c_1
  let main_v8 : IVec S_ 1 := andi main_v3 main_v7
  main_v8
-- ==== Kernel.lean ====
abbrev S1024x32x1024 : Shape := ⟨3, ![1024, 32, 1024]⟩
abbrev S32768x1023 : Shape := ⟨2, ![32768, 1023]⟩
abbrev S32768x1024 : Shape := ⟨2, ![32768, 1024]⟩
abbrev S_ : Shape := ⟨0, ![]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S1024x32x1024, .f32⟩
  | .hbm, ⟨1, _⟩ => ⟨S1024x32x1024, .f32⟩
  | .hbm, ⟨2, _⟩ => ⟨S32768x1023, .i1⟩
  | .hbm, ⟨3, _⟩ => ⟨S32768x1024, .f32⟩
  | .hbm, ⟨4, _⟩ => ⟨S32768x1024, .f32⟩
  | .hbm, ⟨5, _⟩ => ⟨S_, .i1⟩
  | .hbm, ⟨6, _⟩ => ⟨S32768x1024, .i1⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S1024x32x1024, .f32⟩
  | .hbm, ⟨11, _⟩ => ⟨S1024x32x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S1024x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x32x1024_S32768x1024 : S1024x32x1024.ShapeCasts S32768x1024
  pads_S32768x1023_S32768x1024_000_100 : S32768x1023.Pads (![0, 1] : Fin 2 → Nat) ![0, 0] ![0, 0] S32768x1024
  h_S_ : 0 < S_.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  iota_S256x1024_d1_w32 : S256x1024.Iotas .tc 32 [1]
  reduces_S256x1024_S256 : S256x1024.Reduces [1] S256
  shapeCasts_S256_S256x1 : S256.ShapeCasts S256x1
  broadcasts_S256x1_S256x1024 : S256x1.Broadcasts S256x1024
  slices_S256x1024_o0_0_S256x1 : S256x1024.Slices ![0, 0] S256x1
  shapeCasts_S256x1_S256x1 : S256x1.ShapeCasts S256x1
  shapeCasts_S32768x1024_S1024x32x1024 : S32768x1024.ShapeCasts S1024x32x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S32768x1024.size a
  hwx0_2 : ∀ i : grid0.Coords, EltTy.bits .f32 = 32 ∨ (Rect.block (s := S32768x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S32768x1024.size a
  hwx0_3 : ∀ i : grid0.Coords, EltTy.bits .f32 = 32 ∨ (Rect.block (s := S32768x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S32768x1024.size a
  hwx0_4 : ∀ i : grid0.Coords, EltTy.bits .f32 = 32 ∨ (Rect.block (s := S32768x1024) S256x1024.size (cc0_transform_4 i) (hinb0_4 i)).WholeWords (EltTy.packing .f32)

variable [Facts₀]

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x32x1024 : Shape := ⟨3, ![1024, 32, 1024]⟩
abbrev S32768x1023 : Shape := ⟨2, ![32768, 1023]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1024x32x1023 : Shape := ⟨3, ![1024, 32, 1023]⟩
abbrev S1024x32x1 : Shape := ⟨3, ![1024, 32, 1]⟩

abbrev nBuf : Space → Nat
  | .hbm => 40
  | .vmem => 0
  | .smem => 0
  | _ => 0

abbrev bufTy : (tb : Table) → Fin (tcTables nBuf tb) → BufTy
  | .hbm, ⟨0, _⟩ => ⟨S1024x32x1024, .f32⟩
  | .hbm, ⟨1, _⟩ => ⟨S1024x32x1024, .f32⟩
  | .hbm, ⟨2, _⟩ => ⟨S32768x1023, .i1⟩
  | .hbm, ⟨3, _⟩ => ⟨S32768x1024, .f32⟩
  | .hbm, ⟨4, _⟩ => ⟨S32768x1023, .f32⟩
  | .hbm, ⟨5, _⟩ => ⟨S32768x1023, .f32⟩
  | .hbm, ⟨6, _⟩ => ⟨S32768x1023, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1023, .f32⟩
  | .hbm, ⟨15, _⟩ => ⟨S32768x1023, .f32⟩
  | .hbm, ⟨16, _⟩ => ⟨S32768x1023, .f32⟩
  | .hbm, ⟨17, _⟩ => ⟨S32768x1023, .f32⟩
  | .hbm, ⟨18, _⟩ => ⟨S32768x1023, .f32⟩
  | .hbm, ⟨19, _⟩ => ⟨S32768x1023, .f32⟩
  | .hbm, ⟨20, _⟩ => ⟨S32768x1, .f32⟩
  | .hbm, ⟨21, _⟩ => ⟨S32768x1024, .f32⟩
  | .hbm, ⟨22, _⟩ => ⟨S1024x32x1024, .f32⟩
  | .hbm, ⟨23, _⟩ => ⟨S1024x32x1023, .f32⟩
  | .hbm, ⟨24, _⟩ => ⟨S_, .f32⟩
  | .hbm, ⟨25, _⟩ => ⟨S1024x32x1023, .f32⟩
  | .hbm, ⟨26, _⟩ => ⟨S1024x32x1023, .f32⟩
  | .hbm, ⟨27, _⟩ => ⟨S1024x32x1, .f32⟩
  | .hbm, ⟨28, _⟩ => ⟨S1024x32x1023, .f32⟩
  | .hbm, ⟨29, _⟩ => ⟨S1024x32x1023, .f32⟩
  | .hbm, ⟨30, _⟩ => ⟨S_, .f32⟩
  | .hbm, ⟨31, _⟩ => ⟨S1024x32x1023, .f32⟩
  | .hbm, ⟨32, _⟩ => ⟨S1024x32x1023, .f32⟩
  | .hbm, ⟨33, _⟩ => ⟨S1024x32x1023, .f32⟩
  | .hbm, ⟨34, _⟩ => ⟨S_, .f32⟩
  | .hbm, ⟨35, _⟩ => ⟨S1024x32x1023, .f32⟩
  | .hbm, ⟨36, _⟩ => ⟨S1024x32x1023, .f32⟩
  | .hbm, ⟨37, _⟩ => ⟨S1024x32x1023, .f32⟩
  | .hbm, ⟨38, _⟩ => ⟨S1024x32x1, .f32⟩
  | .hbm, ⟨39, _⟩ => ⟨S1024x32x1024, .f32⟩
  | _, _ => ⟨S1024x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  shapeCasts_S1024x32x1024_S32768x1024 : S1024x32x1024.ShapeCasts S32768x1024
  slices_S32768x1024_S32768x1023_0_1 : S32768x1024.Slices ![0, 1] S32768x1023
  reducesTo_S32768x1023_S32768_d1 : S32768x1023.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S_S32768x1023 : S_.BroadcastsInDim S32768x1023 (![] : Fin 0 → Fin S32768x1023.rank)
  bcast_S32768x1_S32768x1023_0_1 : S32768x1.BroadcastsInDim S32768x1023 (![0, 1] : Fin 2 → Fin S32768x1023.rank)
  slices_S32768x1024_S32768x1_0_0 : S32768x1024.Slices ![0, 0] S32768x1
  concatenates_S32768x1_S32768x1023_S32768x1024_d1 : Shape.Concatenates [S32768x1, S32768x1023] S32768x1024 1
  shapeCasts_S32768x1024_S1024x32x1024 : S32768x1024.ShapeCasts S1024x32x1024
  slices_S1024x32x1024_S1024x32x1023_0_0_1 : S1024x32x1024.Slices ![0, 0, 1] S1024x32x1023
  bcast_S_S1024x32x1023 : S_.BroadcastsInDim S1024x32x1023 (![] : Fin 0 → Fin S1024x32x1023.rank)
  slices_S1024x32x1024_S1024x32x1_0_0_0 : S1024x32x1024.Slices ![0, 0, 0] S1024x32x1
  bcast_S1024x32x1_S1024x32x1023_0_1_2 : S1024x32x1.BroadcastsInDim S1024x32x1023 (![0, 1, 2] : Fin 3 → Fin S1024x32x1023.rank)
  concatenates_S1024x32x1_S1024x32x1023_S1024x32x1024_d2 : Shape.Concatenates [S1024x32x1, S1024x32x1023] S1024x32x1024 2

variable [Facts₀]

class Facts : Prop extends Facts₀ where

variable [Facts]
-- ==== Proof.ChannelRow.lean ====
/-
  The symmetric channel, one row at a time, on the extended reals.

  A row of `V = 1024` symbols has a reserved column 0. For the messages, each masked symbol value `t = x·w` is taken
  from its own column and spread evenly over the other `V - 2` free columns: every column `q ≥ 1` ends at
  `x q + ((Σₖ x k · w k) · a − (x q · w q) · b)`, with `a` the rounded `1/(V−2)` and `b` the rounded `1 + 1/(V−2)`;
  column 0 is kept. For the probabilities, column `q ≥ 1` ends at `y q · κ + ((1 − y q) − y 0) · ρ`, with `κ` the rounded
  keep probability and `ρ` the rounded replacement probability per free column; column 0 is kept.

  The mask row `w` has a zero in column 0, so the row sum over all `V` columns is the sum over the `V − 1` free columns:
  `msgRow_succ` states the row in that form, which is how a computation on the free columns alone spells it.
-/
import Idealize.ShloMosaic.PureOps.Ideal
import Idealize.ShloMosaic.PureOps.Ideal.Laws

noncomputable section

namespace Cert.Channel

open Idealize.ShloMosaic

/-- The rounded reciprocal of the number of free columns, `1/1022`. -/
abbrev cSpread : EReal := Ideal.ofBits .f32 0x3A804020#32
/-- The rounded `1 + 1/1022`. -/
abbrev cOwn : EReal := Ideal.ofBits .f32 0x3F802010#32
/-- One. -/
abbrev cOne : EReal := Ideal.ofBits .f32 0x3F800000#32
/-- The rounded replacement probability per free column, `0.1/1022`. -/
abbrev cRep : EReal := Ideal.ofBits .f32 0x38CD3367#32
/-- The rounded keep probability, `0.9`. -/
abbrev cKeep : EReal := Ideal.ofBits .f32 0x3F666666#32

/-- A row of noisy messages from the row `x` of messages and the row `w` of mask values. -/
def msgRow (x w : Fin 1024 → EReal) (q : Fin 1024) : EReal :=
  if q.val = 0 then x q else x q + ((∑ k : Fin 1024, x k * w k) * cSpread - (x q * w q) * cOwn)

/-- A row of noisy probabilities from the row `y` of probabilities. -/
def probRow (y : Fin 1024 → EReal) (q : Fin 1024) : EReal :=
  if q.val = 0 then y q else y q * cKeep + ((cOne - y q) - y 0) * cRep

theorem msgRow_zero (x w : Fin 1024 → EReal) : msgRow x w 0 = x 0 := if_pos rfl

theorem probRow_zero (y : Fin 1024 → EReal) : probRow y 0 = y 0 := if_pos rfl

/-- With a zero in the mask's column 0, the row at a free column `q + 1` is spelt over the free columns alone: the
    sum runs over the `1023` free columns, from a zero start. -/
theorem msgRow_succ (x w : Fin 1024 → EReal) (u : Fin 1023 → EReal) (z : EReal) (hz : z = 0) (hw0 : w 0 = 0)
    (hw : ∀ k : Fin 1023, w k.succ = u k) (q : Fin 1023) :
    msgRow x w q.succ = x q.succ + ((z + ∑ k : Fin 1023, x k.succ * u k) * cSpread - (x q.succ * u q) * cOwn) := by
  unfold msgRow
  rw [if_neg (by simp), Fin.sum_univ_succ, hw0, mul_zero, hz, hw q]
  simp only [hw]

theorem probRow_succ (y : Fin 1024 → EReal) (q : Fin 1023) :
    probRow y q.succ = y q.succ * cKeep + ((cOne - y q.succ) - y 0) * cRep := by
  unfold probRow
  rw [if_neg (by simp)]

end Cert.Channel

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.Body.lean ====
/-
  What the kernel body stores, read entry by entry on the extended reals.

  A block holds 256 whole rows of 1024 columns. Entry `(p, q)` of the first stored value is the noisy-message row
  `Channel.msgRow` of row `p` of the message block and row `p` of the mask block, at column `q`: the lane sum of the
  products runs over the whole row, kept as a column and spread back over the lanes; the column-0 test is the lane
  number compared with zero. Entry `(p, q)` of the second stored value is `Channel.probRow` of row `p` of the
  probability block at column `q`: its column 0, cut out and spread over the lanes, is the row's entry `0`.
-/
import proofs.«149627_j22445499089175_1_alg».proof.Proof.Gen.KernelIdeal.Skeleton
import proofs.«149627_j22445499089175_1_alg».proof.Proof.ChannelRow
import proofs.«149627_j22445499089175_1_alg».proof.Proof.LibKeepdims
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.Keepdims

/-- The column-0 test at `(p, q)`: set exactly when `q = 0`. -/
theorem isCol0_apply (p : Fin 256) (q : Fin 1024) : k0_pay1 (ix2 p q) = if q.val = 0 then 1#1 else 0#1 := by
  unfold k0_pay1
  show IntOp.cmpi .eq (iota .tc S256x1024 32 [1] iota_S256x1024_d1_w32 (ix2 p q)) 0#32 = _
  rw [iota_single_apply]
  show BitVec.ofBool (BitVec.ofNat 32 q.val == 0#32) = _
  by_cases h : q.val = 0
  · rw [if_pos h, h]; rfl
  · rw [if_neg h]
    have hne : (BitVec.ofNat 32 q.val == 0#32) = false := by
      rw [beq_eq_false_iff_ne]
      intro e
      have e' := congrArg BitVec.toNat e
      simp only [BitVec.toNat_ofNat, BitVec.toNat_zero] at e'
      have := q.isLt
      omega
    rw [hne]; rfl

/-- A lane sum kept as a column, scaled by a splat scalar and spread back over the lanes, at `(p, q)`: the sum of row
    `p` times the scalar. -/
theorem rowsum_scaled_apply (T : FVec Ideal S256x1024 .f32) (s : Ideal .f32) (p : Fin 256) (q : Fin 1024) :
    broadcastTo S256x1024 (mulf (shapeCast S256x1 (multiReduction .add [1] S256 T 0x00000000#32 reduces_S256x1024_S256 (.inl rfl) rfl) shapeCasts_S256_S256x1)
      (broadcast S256x1 s)) broadcasts_S256x1_S256x1024 (ix2 p q) = (∑ k : Fin 1024, T (ix2 p k)) * s := by
  refine (broadcastTo_a1_ab_apply _ broadcasts_S256x1_S256x1024 p q).trans ?_
  show shapeCast S256x1 _ shapeCasts_S256_S256x1 (ix2 p (0 : Fin 1)) * s = _
  refine congrArg (· * s) ?_
  refine (shapeCast_a_a1_apply _ shapeCasts_S256_S256x1 p (0 : Fin 1)).trans ?_
  refine (Ideal.multiReduction_add_single T 0x00000000#32 reduces_S256x1024_S256 (.inl rfl) rfl (ix1 p)).trans ?_
  refine Finset.sum_congr rfl fun k _ => ?_
  exact congrArg T (funext fun a => Fin.ext (by match a with | ⟨0, _⟩ => rfl | ⟨1, _⟩ => rfl))

/-- Column 0 of a block, cut out and spread over the lanes, at `(p, q)`: the block's entry `(p, 0)`. -/
theorem col0_spread_apply (Y : FVec Ideal S256x1024 .f32) (p : Fin 256) (q : Fin 1024) :
    broadcastTo S256x1024 (extractStridedSlice S256x1 ![0, 0] Y slices_S256x1024_o0_0_S256x1)
      broadcasts_S256x1_S256x1024 (ix2 p q) = Y (ix2 p (0 : Fin 1024)) := by
  refine (broadcastTo_a1_ab_apply _ broadcasts_S256x1_S256x1024 p q).trans ?_
  refine extractStridedSlice_apply ![0, 0] Y slices_S256x1024_o0_0_S256x1 (ix2 p (0 : Fin 1)) (ix2 p (0 : Fin 1024)) fun a => ?_
  match a with
  | ⟨0, _⟩ => show p.val = 0 + p.val; omega
  | ⟨1, _⟩ => rfl

/-- The first stored value at `(p, q)`. -/
theorem msg_payload_apply (x0 x2 : Vec Ideal S256x1024 .f32) (p : Fin 256) (q : Fin 1024) :
    k0_pay2 (F := Ideal) x0 x2 (ix2 p q) = Channel.msgRow (fun k => x0 (ix2 p k)) (fun k => x2 (ix2 p k)) q := by
  unfold k0_pay2
  simp only [shapeCast_self]
  rw [select_apply, isCol0_apply, addf_apply, subf_apply, rowsum_scaled_apply]
  unfold Channel.msgRow
  by_cases h : q.val = 0
  · rw [if_pos h, if_pos h, select_one]
  · rw [if_neg h, if_neg h, select_zero]
    rfl

/-- The second stored value at `(p, q)`. -/
theorem prob_payload_apply (x1 : Vec Ideal S256x1024 .f32) (p : Fin 256) (q : Fin 1024) :
    k0_pay3 (F := Ideal) x1 (ix2 p q) = Channel.probRow (fun k => x1 (ix2 p k)) q := by
  unfold k0_pay3
  simp only [shapeCast_self]
  rw [select_apply, isCol0_apply, addf_apply, mulf_apply, mulf_apply, subf_apply, subf_apply, col0_spread_apply]
  unfold Channel.probRow
  by_cases h : q.val = 0
  · rw [if_pos h, if_pos h, select_one]
  · rw [if_neg h, if_neg h, select_zero]
    rfl

end Cert.KernelIdeal.Body

end
-- ==== Proof.ChannelArrays.lean ====
/-
  The two results as functions of whole arrays. Over the flattened `[32768, 1024]` layout, row `r` column `q` of the
  noisy messages is `Channel.msgRow` of row `r` of the messages `X` and of the number mask `M` at `q`, and of the noisy
  probabilities `Channel.probRow` of row `r` of the probabilities `Y` at `q`. The program's results are these, fed the
  flattened arguments and the mask with a false column in front converted to numbers, and viewed `[1024, 32, 1024]` again.
-/
import proofs.«149627_j22445499089175_1_alg».proof.Proof.Gen.KernelIdeal
import proofs.«149627_j22445499089175_1_alg».proof.Proof.ChannelRow
import Idealize.ShloMosaic.Lib.ValueIdx

noncomputable section

namespace Cert.Channel

open Cert.KernelIdeal Cert.KernelIdeal.Gen Idealize.ShloMosaic Idealize.ShloMosaic.ValueIdx

/-- The noisy messages as one function of the flattened messages `X` and the number mask `M`. -/
def msgArr (X M : S32768x1024.Idx → EReal) : S32768x1024.Idx → EReal := fun i =>
  msgRow (fun k => X (ix2 (i 0 : Fin 32768) k)) (fun k => M (ix2 (i 0 : Fin 32768) k)) (i 1 : Fin 1024)

/-- The noisy probabilities as one function of the flattened probabilities `Y`. -/
def probArr (Y : S32768x1024.Idx → EReal) : S32768x1024.Idx → EReal := fun i =>
  probRow (fun k => Y (ix2 (i 0 : Fin 32768) k)) (i 1 : Fin 1024)

/-- The mask `[32768, 1023]` with a false column in front, as numbers `[32768, 1024]`. -/
def numMask (a2 : S32768x1023.Idx → BitVec 1) : S32768x1024.Idx → EReal :=
  uitofp (F := Ideal) .f32 (pad S32768x1024 ![0, 1] ![0, 0] ![0, 0] a2 (constantI S_ 1 0#1) pads_S32768x1023_S32768x1024_000_100 h_S_)

/-- The first result from the arguments. -/
def outMsg (a0 : S1024x32x1024.Idx → EReal) (a2 : S32768x1023.Idx → BitVec 1) : S1024x32x1024.Idx → EReal :=
  shapeCast S1024x32x1024 (msgArr (shapeCast S32768x1024 a0 shapeCasts_S1024x32x1024_S32768x1024) (numMask a2)) shapeCasts_S32768x1024_S1024x32x1024

/-- The second result from the arguments. -/
def outProb (a1 : S1024x32x1024.Idx → EReal) : S1024x32x1024.Idx → EReal :=
  shapeCast S1024x32x1024 (probArr (shapeCast S32768x1024 a1 shapeCasts_S1024x32x1024_S32768x1024)) shapeCasts_S32768x1024_S1024x32x1024

end Cert.Channel

end
-- ==== Proof.Blocks.lean ====
/-
  From blocks to arrays. Grid point `t` stages rows `256 t … 256 t + 255` of each array, all 1024 columns. A noisy row
  depends on its own row of the inputs only, so what point `t` writes back is block `t` of ONE function of the whole
  staged arrays: row `r`, column `q` of the first result is `Channel.msgRow` of row `r` of the flattened messages and
  of the number mask at `q`, and of the second `Channel.probRow` of row `r` of the flattened probabilities at `q`.
  The 128 blocks tile the 32768 rows (row `r` lies in block `r / 256`), so each result array ends holding that function.
-/
import proofs.«149627_j22445499089175_1_alg».proof.Proof.Gen.KernelIdeal.Frame
import proofs.«149627_j22445499089175_1_alg».proof.Proof.Body
import proofs.«149627_j22445499089175_1_alg».proof.Proof.ChannelArrays
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.Channel (msgArr probArr)

/-- A block of rows starting at row `256 b`: the first stored value at `y` is the array function at the index `i` with
    `i`'s row `256 b` further down and the same column. -/
theorem msg_block (X M : S32768x1024.Idx → EReal) (x0 x2 : Vec Ideal S256x1024 .f32) (b : ℕ) (hb : b < 128)
    (hx0 : ∀ (p : Fin 256) (k : Fin 1024), x0 (ix2 p k) = X (ix2 (⟨b * 256 + p.val, by omega⟩ : Fin 32768) k))
    (hx2 : ∀ (p : Fin 256) (k : Fin 1024), x2 (ix2 p k) = M (ix2 (⟨b * 256 + p.val, by omega⟩ : Fin 32768) k))
    (y : S256x1024.Idx) (i : S32768x1024.Idx) (hi0 : (i 0).val = b * 256 + (y 0).val) (hi1 : (i 1).val = (y 1).val) :
    k0_pay2 (F := Ideal) x0 x2 y = msgArr X M i := by
  obtain ⟨p, q, rfl⟩ : ∃ (p : Fin 256) (q : Fin 1024), y = ix2 p q := ⟨y 0, y 1, eq_ix2 y⟩
  rw [Body.msg_payload_apply]
  unfold msgArr
  have e0 : i 0 = (⟨b * 256 + p.val, by have := p.isLt; omega⟩ : Fin 32768) := Fin.ext hi0
  have e1 : i 1 = (q : Fin 1024) := Fin.ext hi1
  rw [e0, e1]
  simp only [hx0, hx2]

theorem prob_block (Y : S32768x1024.Idx → EReal) (x1 : Vec Ideal S256x1024 .f32) (b : ℕ) (hb : b < 128)
    (hx1 : ∀ (p : Fin 256) (k : Fin 1024), x1 (ix2 p k) = Y (ix2 (⟨b * 256 + p.val, by omega⟩ : Fin 32768) k))
    (y : S256x1024.Idx) (i : S32768x1024.Idx) (hi0 : (i 0).val = b * 256 + (y 0).val) (hi1 : (i 1).val = (y 1).val) :
    k0_pay3 (F := Ideal) x1 y = probArr Y i := by
  obtain ⟨p, q, rfl⟩ : ∃ (p : Fin 256) (q : Fin 1024), y = ix2 p q := ⟨y 0, y 1, eq_ix2 y⟩
  rw [Body.prob_payload_apply]
  unfold probArr
  have e0 : i 0 = (⟨b * 256 + p.val, by have := p.isLt; omega⟩ : Fin 32768) := Fin.ext hi0
  have e1 : i 1 = (q : Fin 1024) := Fin.ext hi1
  rw [e0, e1]
  simp only [hx1]

variable (m : (ℓ : Loc nD τ sig) → Buf (Elt Ideal) ℓ)

/-- The grid has 128 points. -/
theorem t_lt (t : Fin cfg0.N) : t.val < 128 := by
  have h := t.isLt
  have hN : cfg0.N = 128 := N_0
  omega

theorem hz : (![0, 0] : Fin 2 → Nat) = fun _ => 0 := funext fun a => by fin_cases a <;> rfl

/-- Every window's block at point `t` is block row `t`, block column `0`. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- An input block's entry `(p, k)` is the staged array's entry `(256 t + p, k)`. -/
theorem iblk0_apply (c : Dev nD) (t : Fin cfg0.N) (p : Fin 256) (k : Fin 1024) :
    (iblk m c 0 t : Vec Ideal S256x1024 .f32) (ix2 p k)
      = (V m c main_v0 : S32768x1024.Idx → EReal) (ix2 (⟨t.val * 256 + p.val, by have := t_lt t; omega⟩ : Fin 32768) k) := by
  obtain ⟨e0, e1, -⟩ := index_facts t
  show V m c main_v0 (((cfg0.win 0).blk t).view.emb (ix2 p k)) = V m c main_v0 _
  refine congrArg (V m c main_v0) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

theorem iblk1_apply (c : Dev nD) (t : Fin cfg0.N) (p : Fin 256) (k : Fin 1024) :
    (iblk m c 1 t : Vec Ideal S256x1024 .f32) (ix2 p k)
      = (V m c main_v1 : S32768x1024.Idx → EReal) (ix2 (⟨t.val * 256 + p.val, by have := t_lt t; omega⟩ : Fin 32768) k) := by
  obtain ⟨-, -, e0, e1, -⟩ := index_facts t
  show V m c main_v1 (((cfg0.win 1).blk t).view.emb (ix2 p k)) = V m c main_v1 _
  refine congrArg (V m c main_v1) (funext fun a => Fin.ext ?_)
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

theorem iblk2_apply (c : Dev nD) (t : Fin cfg0.N) (p : Fin 256) (k : Fin 1024) :
    (iblk m c 2 t : Vec Ideal S256x1024 .f32) (ix2 p k)
      = (V m c main_v3 : S32768x1024.Idx → EReal) (ix2 (⟨t.val * 256 + p.val, by have := t_lt t; omega⟩ : Fin 32768) k) := by
  obtain ⟨-, -, -, -, e0, e1, -⟩ := index_facts t
  show V m c main_v3 (((cfg0.win 2).blk t).view.emb (ix2 p k)) = V m c main_v3 _
  refine congrArg (V m c main_v3) (funext fun a => Fin.ext ?_)
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

/-- What point `t` writes back to the first result is block `t` of `msgArr` of the staged arrays. -/
theorem flushed3_eq (c : Dev nD) (t : Fin cfg0.N) :
    (dats m 0 c).flushed 3 t = ((cfg0.win 3).blk t).view.read (Elt Ideal) (msgArr (V m c main_v0) (V m c main_v3)) := by
  show (cfg0.win 3).cut (grid0.coords t) ((dats m 0 c).after 3 t) = _
  rw [after0_3]
  unfold out0_3
  rw [View.canon_unit_zero hz]
  simp only [View.ld_unit_zero (S := S256x1024) hz]
  have ht : t.val < 128 := t_lt t
  obtain ⟨-, -, -, -, -, -, e0, e1, -⟩ := index_facts t
  funext j
  show k0_pay2 (F := Ideal) (iblk m c 0 t) (iblk m c 2 t) j = msgArr (V m c main_v0) (V m c main_v3) (((cfg0.win 3).blk t).view.emb j)
  refine msg_block (V m c main_v0) (V m c main_v3) (iblk m c 0 t) (iblk m c 2 t) t.val ht (iblk0_apply m c t) (iblk2_apply m c t) j _ ?_ ?_
  · show win0_3.index t (0 : Fin 2) * 256 + 1 * (j 0).val = t.val * 256 + (j 0).val; rw [e0]; omega
  · show win0_3.index t (1 : Fin 2) * 1024 + 1 * (j 1).val = (j 1).val; rw [e1]; omega

theorem flushed4_eq (c : Dev nD) (t : Fin cfg0.N) :
    (dats m 0 c).flushed 4 t = ((cfg0.win 4).blk t).view.read (Elt Ideal) (probArr (V m c main_v1)) := by
  show (cfg0.win 4).cut (grid0.coords t) ((dats m 0 c).after 4 t) = _
  rw [after0_4]
  unfold out0_4
  rw [View.canon_unit_zero hz]
  simp only [View.ld_unit_zero (S := S256x1024) hz]
  have ht : t.val < 128 := t_lt t
  obtain ⟨-, -, -, -, -, -, -, -, e0, e1⟩ := index_facts t
  funext j
  show k0_pay3 (F := Ideal) (iblk m c 1 t) j = probArr (V m c main_v1) (((cfg0.win 4).blk t).view.emb j)
  refine prob_block (V m c main_v1) (iblk m c 1 t) t.val ht (iblk1_apply m c t) j _ ?_ ?_
  · show win0_4.index t (0 : Fin 2) * 256 + 1 * (j 0).val = t.val * 256 + (j 0).val; rw [e0]; omega
  · show win0_4.index t (1 : Fin 2) * 1024 + 1 * (j 1).val = (j 1).val; rw [e1]; omega

/-- An index is in point `t`'s block of a result array iff each coordinate is in the block's range. -/
theorem mem_blk3 (t : Fin cfg0.N) (i : S32768x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v4_0).slice (win0_3.rect t)).set ↔ _
  rw [View.set_slice_whole, Rect.mem_set_unit]
  exact Iff.rfl

theorem mem_blk4 (t : Fin cfg0.N) (i : S32768x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v4_1).slice (win0_4.rect t)).set ↔ _
  rw [View.set_slice_whole, Rect.mem_set_unit]
  exact Iff.rfl

/-- Row `r` lies in block `r / 256`. -/
theorem cover3 (i : S32768x1024.Idx) : ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 128 := N_0
  let t : Fin cfg0.N := ⟨(i 0).val / 256, by rw [hN]; omega⟩
  obtain ⟨-, -, -, -, -, -, e0, e1, -⟩ := index_facts t
  have e0' : win0_3.index t (0 : Fin 2) = (i 0).val / 256 := e0
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; rw [e0']; omega
  | ⟨1, _⟩ => show win0_3.index t (1 : Fin 2) * 1024 ≤ (i 1).val ∧ (i 1).val < win0_3.index t (1 : Fin 2) * 1024 + 1024; rw [e1]; omega

theorem cover4 (i : S32768x1024.Idx) : ∃ t : Fin cfg0.N, (cfg0.win 4).flush t = true ∧ i ∈ ((cfg0.win 4).blk t).view.set := by
  have hi0 : (i 0).val < 32768 := (i 0).isLt
  have hi1 : (i 1).val < 1024 := (i 1).isLt
  have hN : cfg0.N = 128 := N_0
  let t : Fin cfg0.N := ⟨(i 0).val / 256, by rw [hN]; omega⟩
  obtain ⟨-, -, -, -, -, -, -, -, e0, e1⟩ := index_facts t
  have e0' : win0_4.index t (0 : Fin 2) = (i 0).val / 256 := e0
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; rw [e0']; omega
  | ⟨1, _⟩ => show win0_4.index t (1 : Fin 2) * 1024 ≤ (i 1).val ∧ (i 1).val < win0_4.index t (1 : Fin 2) * 1024 + 1024; rw [e1]; omega

/-- The first result array after the launch. -/
theorem final3 (c : Dev nD) : (dats m 0 c).arrAt 3 cfg0.N = msgArr (V m c main_v0) (V m c main_v3) :=
  (dats m 0 c).arrAt_eq_of_cover 3 (msgArr (V m c main_v0) (V m c main_v3)) (fun t _ => flushed3_eq m c t) cover3

/-- The second result array after the launch. -/
theorem final4 (c : Dev nD) : (dats m 0 c).arrAt 4 cfg0.N = probArr (V m c main_v1) :=
  (dats m 0 c).arrAt_eq_of_cover 4 (probArr (V m c main_v1)) (fun t _ => flushed4_eq m c t) cover4

end Cert.KernelIdeal.Blocks

end
-- ==== Proof.EntryArrays.lean ====
/-
  The three arrays the kernel's windows stage, as the host lines before the launch leave them: the messages and the
  probabilities flattened from `[1024, 32, 1024]` to `[32768, 1024]`, and the mask given one false column in front and
  converted to numbers.
-/
import proofs.«149627_j22445499089175_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The flattened messages. -/
theorem V_main_v0 (c : Dev nD) :
    (V m c main_v0 : S32768x1024.Idx → Elt F .f32) = shapeCast S32768x1024 (m ((c : Thread nD τ).loc main_arg0)) shapeCasts_S1024x32x1024_S32768x1024 := by
  dsimp only [Gen.V, Gen.V0]
  simp only [Gen.hostOps0, Gen.hostOps0_1, Gen.hostOps0_2, List.flatten_cons, List.flatten_nil, List.append_nil, List.cons_append,
    List.nil_append]
  after_results
  rfl

/-- The flattened probabilities. -/
theorem V_main_v1 (c : Dev nD) :
    (V m c main_v1 : S32768x1024.Idx → Elt F .f32) = shapeCast S32768x1024 (m ((c : Thread nD τ).loc main_arg1)) shapeCasts_S1024x32x1024_S32768x1024 := by
  dsimp only [Gen.V, Gen.V0]
  simp only [Gen.hostOps0, Gen.hostOps0_1, Gen.hostOps0_2, List.flatten_cons, List.flatten_nil, List.append_nil, List.cons_append,
    List.nil_append]
  after_results
  rfl

/-- The mask with a false column in front, as numbers. -/
theorem V_main_v3 (c : Dev nD) :
    (V m c main_v3 : S32768x1024.Idx → Elt F .f32) = uitofp .f32 (pad S32768x1024 ![0, 1] ![0, 0] ![0, 0] (m ((c : Thread nD τ).loc main_arg2))
      (constantI S_ 1 0#1) pads_S32768x1023_S32768x1024_000_100 h_S_) := by
  dsimp only [Gen.V, Gen.V0]
  simp only [Gen.hostOps0, Gen.hostOps0_1, Gen.hostOps0_2, List.flatten_cons, List.flatten_nil, List.append_nil, List.cons_append,
    List.nil_append]
  after_results
  rfl

end Cert.KernelIdeal.Entry

end
-- ==== Proof.KernelRun.lean ====
/-
  The program's run, read. After the launch the two result arrays hold `Channel.msgArr` and `Channel.probArr` of the
  staged arrays; the two host lines after the launch view them `[1024, 32, 1024]` again. With the staged arrays read as
  the host lines before the launch leave them, each result is a function of the arguments alone: `Channel.outMsg` of
  the messages and the mask, `Channel.outProb` of the probabilities. The arguments end as they were launched.
-/
import proofs.«149627_j22445499089175_1_alg».proof.Proof.Gen.KernelIdeal.Frame
import proofs.«149627_j22445499089175_1_alg».proof.Proof.Blocks
import proofs.«149627_j22445499089175_1_alg».proof.Proof.EntryArrays
import proofs.«149627_j22445499089175_1_alg».proof.Proof.ChannelArrays
import Idealize.ShloMosaic.Lib.Pipeline.Value
import Idealize.ShloMosaic.Lib.StableHlo.Run

noncomputable section

namespace Cert.KernelIdeal.RunValue

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The first result array after the launch, from the arguments. -/
theorem arr3_eq (c : Dev nD) :
    (dats m 0 c).arrAt 3 cfg0.N = Channel.msgArr (shapeCast S32768x1024 (m ((c : Thread nD τ).loc main_arg0)) shapeCasts_S1024x32x1024_S32768x1024)
      (Channel.numMask (m ((c : Thread nD τ).loc main_arg2))) := by
  rw [Blocks.final3, Entry.V_main_v0, Entry.V_main_v3]
  rfl

/-- The second result array after the launch, from the argument. -/
theorem arr4_eq (c : Dev nD) :
    (dats m 0 c).arrAt 4 cfg0.N = Channel.probArr (shapeCast S32768x1024 (m ((c : Thread nD τ).loc main_arg1)) shapeCasts_S1024x32x1024_S32768x1024) := by
  rw [Blocks.final4, Entry.V_main_v1]

/-- The first result as the host lines after the launch leave it. -/
theorem tail_v5 (c : Dev nD) :
    Pipeline.afterTail₀ cfgs (dats m) 0 (V0 m) [hostOps1] c main_v5
      = Channel.outMsg (m ((c : Thread nD τ).loc main_arg0)) (m ((c : Thread nD τ).loc main_arg2)) := by
  unfold Pipeline.afterTail₀
  show StableHlo.after hostOps1 _ (Proc.devRef .tc main_v5) = _
  after_results
  unfold Channel.outMsg
  exact congrArg (fun z => shapeCast S1024x32x1024 z shapeCasts_S32768x1024_S1024x32x1024)
    ((Pipeline.withArrays_arr spec0 launch0.win.arr_inj c _ _ 3).trans (arr3_eq m c))

/-- The second result as the host lines after the launch leave it. -/
theorem tail_v6 (c : Dev nD) :
    Pipeline.afterTail₀ cfgs (dats m) 0 (V0 m) [hostOps1] c main_v6
      = Channel.outProb (m ((c : Thread nD τ).loc main_arg1)) := by
  unfold Pipeline.afterTail₀
  show StableHlo.after hostOps1 _ (Proc.devRef .tc main_v6) = _
  after_results
  unfold Channel.outProb
  exact congrArg (fun z => shapeCast S1024x32x1024 z shapeCasts_S32768x1024_S1024x32x1024)
    ((Pipeline.withArrays_arr spec0 launch0.win.arr_inj c _ _ 4).trans (arr4_eq m c))

/-- The run: every weakly fair execution terminates with the two results at their functions of the arguments and the
    arguments unchanged. -/
theorem run : θ_run defs (onTc (τ := τ) (main (F := Ideal))) ⟨m, fun _ => 0, ρ⟩ fun r => ∀ c : Dev nD,
      r.2.mem ((c.tc : Thread nD τ).loc main_v5) = Channel.outMsg (m ((c.tc : Thread nD τ).loc main_arg0)) (m ((c.tc : Thread nD τ).loc main_arg2))
      ∧ r.2.mem ((c.tc : Thread nD τ).loc main_v6) = Channel.outProb (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have k0 := ((h c).2 main_arg0 (Pipeline.mem_restRefs_of main_arg0 (by decide) (by decide))).trans (W_main_arg0 m (dats m) c)
    have k1 := ((h c).2 main_arg1 (Pipeline.mem_restRefs_of main_arg1 (by decide) (by decide))).trans (W_main_arg1 m (dats m) c)
    have k2 := ((h c).2 main_arg2 (Pipeline.mem_restRefs_of main_arg2 (by decide) (by decide))).trans (W_main_arg2 m (dats m) c)
    ⟨((h c).2 main_v5 (Pipeline.mem_restRefs_of main_v5 (by decide) (by decide))).trans (tail_v5 m c),
      ((h c).2 main_v6 (Pipeline.mem_restRefs_of main_v6 (by decide) (by decide))).trans (tail_v6 m c),
      k0, k1, k0, k1, k2⟩) (run_main m ρ)

end Cert.KernelIdeal.RunValue

end
-- ==== Proof.MaskColumns.lean ====
/-
  The number mask read entry by entry: column 0 is the false padding, so it reads zero; column `k + 1` is the mask's
  own column `k` as a number.
-/
import proofs.«149627_j22445499089175_1_alg».proof.Proof.ChannelArrays
import Idealize.ShloMosaic.Lib.KernelVsHost

noncomputable section

namespace Cert.Channel

open Cert.KernelIdeal Cert.KernelIdeal.Gen Idealize.ShloMosaic Idealize.ShloMosaic.ValueIdx

theorem numMask_zero (a2 : S32768x1023.Idx → BitVec 1) (r : Fin 32768) : numMask a2 (ix2 r (0 : Fin 1024)) = 0 := by
  unfold numMask
  show FloatOps.uitofp (F := Ideal) .f32 (pad S32768x1024 ![0, 1] ![0, 0] ![0, 0] a2 (constantI S_ 1 0#1) pads_S32768x1023_S32768x1024_000_100 h_S_ (ix2 r (0 : Fin 1024))) = 0
  rw [pad_apply_of_not_inside ![0, 1] ![0, 0] ![0, 0] a2 (constantI S_ 1 0#1) pads_S32768x1023_S32768x1024_000_100 h_S_ (ix2 r (0 : Fin 1024)) (1 : Fin 2)
    (by intro h; have h1 : (1 : ℕ) ≤ 0 := h.1; omega)]
  show (((0#1 : BitVec 1).toNat : ℝ) : EReal) = 0
  simp

theorem numMask_succ (a2 : S32768x1023.Idx → BitVec 1) (r : Fin 32768) (k : Fin 1023) :
    numMask a2 (ix2 r k.succ) = FloatOps.uitofp (F := Ideal) .f32 (a2 (ix2 r k)) := by
  unfold numMask
  show FloatOps.uitofp (F := Ideal) .f32 (pad S32768x1024 ![0, 1] ![0, 0] ![0, 0] a2 (constantI S_ 1 0#1) pads_S32768x1023_S32768x1024_000_100 h_S_ (ix2 r k.succ)) = _
  rw [pad_apply_of_inside ![0, 1] ![0, 0] ![0, 0] a2 (constantI S_ 1 0#1) pads_S32768x1023_S32768x1024_000_100 h_S_ (ix2 r k.succ) (ix2 r k)
    (fun a => by
      match a with
      | ⟨0, _⟩ => show r.val = 0 + r.val * (0 + 1); omega
      | ⟨1, _⟩ => show k.val + 1 = 1 + k.val * (0 + 1); omega)]

end Cert.Channel

end
-- ==== Proof.RefMessages.lean ====
/-
  The reference's noisy messages are the same function of the arguments. On the flattened layout the reference keeps
  column 0 of the messages and, on the free columns `1 … 1023`, adds to the message the row's masked total (summed over
  the free columns from a zero start) times the spread constant, less the column's own masked value times the own
  constant; joined along the columns this is `Channel.msgArr` of the flattened messages and the number mask, whose
  column 0 is zero and adds nothing to the total over all columns.
-/
import proofs.«149627_j22445499089175_1_alg».proof.Proof.Gen.ReferenceIdeal.Read
import proofs.«149627_j22445499089175_1_alg».proof.Proof.ChannelArrays
import proofs.«149627_j22445499089175_1_alg».proof.Proof.MaskColumns
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- The joined array at column 0: the messages' column 0. -/
theorem joined_col0 (a0 : S1024x32x1024.Idx → EReal) (a2 : S32768x1023.Idx → BitVec 1) (r : Fin 32768) :
    val_main_v15 (F := Ideal) a0 a2 (ix2 r (0 : Fin 1024)) = val_main_v0 (F := Ideal) a0 (ix2 r (0 : Fin 1024)) := by
  unfold val_main_v15
  refine (concatenate_pair_apply_left (t := S32768x1024) (s₁ := S32768x1) (s₂ := S32768x1023) (1 : Fin 2) (val_main_v14 (F := Ideal) a0) (val_main_v13 (F := Ideal) a0 a2) concatenates_S32768x1_S32768x1023_S32768x1024_d1 (ix2 r (0 : Fin 1024)) rfl
    (ix2 r (0 : Fin 1)) (fun b => by match b with | ⟨0, _⟩ => rfl | ⟨1, _⟩ => rfl)).trans ?_
  rw [val_main_v14_apply]
  exact congrArg _ (funext fun a => Fin.ext (by match a with | ⟨0, _⟩ => rfl | ⟨1, _⟩ => rfl))

/-- The joined array at a free column `q + 1`: the free-column computation at `q`. -/
theorem joined_free (a0 : S1024x32x1024.Idx → EReal) (a2 : S32768x1023.Idx → BitVec 1) (r : Fin 32768) (q : Fin 1023) :
    val_main_v15 (F := Ideal) a0 a2 (ix2 r q.succ) = val_main_v13 (F := Ideal) a0 a2 (ix2 r q) := by
  unfold val_main_v15
  exact concatenate_pair_apply_right (t := S32768x1024) (s₁ := S32768x1) (s₂ := S32768x1023) (1 : Fin 2) (val_main_v14 (F := Ideal) a0) (val_main_v13 (F := Ideal) a0 a2) concatenates_S32768x1_S32768x1023_S32768x1024_d1 (ix2 r q.succ) rfl rfl
    (ix2 r q) (fun b hb => by
      match b with
      | ⟨0, _⟩ => rfl
      | ⟨1, _⟩ => exact absurd rfl hb)
    (by show q.val + 1 = q.val + 1; rfl)

/-- The free-column computation at `(r, q)`, over the flattened messages `X`. -/
theorem free_apply (a0 : S1024x32x1024.Idx → EReal) (a2 : S32768x1023.Idx → BitVec 1) (r : Fin 32768) (q : Fin 1023) :
    val_main_v13 (F := Ideal) a0 a2 (ix2 r q)
      = val_main_v0 (F := Ideal) a0 (ix2 r q.succ)
        + ((Ideal.ofBits .f32 0x00000000#32 + ∑ k : Fin 1023, val_main_v0 (F := Ideal) a0 (ix2 r k.succ) * FloatOps.uitofp (F := Ideal) .f32 (a2 (ix2 r k))) * Channel.cSpread
          - (val_main_v0 (F := Ideal) a0 (ix2 r q.succ) * FloatOps.uitofp (F := Ideal) .f32 (a2 (ix2 r q))) * Channel.cOwn) := by
  have e12 : idx_main_v12 (ix2 r q) = ix2 r q.succ :=
    funext fun a => Fin.ext (by match a with | ⟨0, _⟩ => rfl | ⟨1, _⟩ => (show 1 + q.val = q.val + 1; omega))
  have e2 : ∀ k : Fin 1023, idx_main_v2 (ix2 r k) = ix2 r k.succ := fun k =>
    funext fun a => Fin.ext (by match a with | ⟨0, _⟩ => rfl | ⟨1, _⟩ => (show 1 + k.val = k.val + 1; omega))
  have e4 : ∀ k : Fin 1023, idx_main_v4 (idx_main_v5 (idx_main_v10 (ix2 r q))) k = ix2 r k := fun k =>
    funext fun a => Fin.ext (by match a with | ⟨0, _⟩ => rfl | ⟨1, _⟩ => rfl)
  rw [val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_cst_apply, val_main_cst_0_apply, val_main_cst_1_apply, e12, e2]
  simp only [val_main_v3_apply, val_main_v2_apply, val_main_v1_apply, e4, e2, Ideal.addf_def, Ideal.subf_def, Ideal.mulf_def, Ideal.ofBits_def]

/-- The reference's joined array is `Channel.msgArr` of the flattened messages and the number mask. -/
theorem joined_eq (a0 : S1024x32x1024.Idx → EReal) (a2 : S32768x1023.Idx → BitVec 1) :
    val_main_v15 (F := Ideal) a0 a2 = Channel.msgArr (val_main_v0 (F := Ideal) a0) (Channel.numMask a2) := by
  funext i
  obtain ⟨r, c, rfl⟩ : ∃ (r : Fin 32768) (c : Fin 1024), i = ix2 r c := ⟨i 0, i 1, eq_ix2 i⟩
  unfold Channel.msgArr
  show _ = Channel.msgRow (fun k => val_main_v0 (F := Ideal) a0 (ix2 r k)) (fun k => Channel.numMask a2 (ix2 r k)) c
  refine Fin.cases ?_ (fun q => ?_) c
  · rw [joined_col0, Channel.msgRow_zero]
  · rw [joined_free, free_apply,
      Channel.msgRow_succ _ _ (fun k => FloatOps.uitofp (F := Ideal) .f32 (a2 (ix2 r k))) (Ideal.ofBits .f32 0x00000000#32)
        Ideal.ofBits_zero_f32 (Channel.numMask_zero a2 r) (fun k => Channel.numMask_succ a2 r k) q]

/-- The reference's first result is the program's first result as a function of the arguments. -/
theorem msg_result_eq (a0 : S1024x32x1024.Idx → EReal) (a2 : S32768x1023.Idx → BitVec 1) :
    val_main_v16 (F := Ideal) a0 a2 = Channel.outMsg a0 a2 := by
  unfold val_main_v16 Channel.outMsg
  rw [joined_eq]
  rfl

end Cert.ReferenceIdeal.RefValue

end
-- ==== Proof.RefProbabilities.lean ====
/-
  The reference's noisy probabilities are the same function of the argument. The reference works on the
  `[1024, 32, 1024]` array directly: it keeps column 0 and on the free columns forms `y·κ + ((1 − y) − y₀)·ρ`, with `y₀`
  the row's column 0. The program flattens to `[32768, 1024]`, forms `Channel.probArr`, and views the result
  `[1024, 32, 1024]` again; entry `(b, l, c)` of the one array is entry `(32 b + l, c)` of the other.
-/
import proofs.«149627_j22445499089175_1_alg».proof.Proof.Gen.ReferenceIdeal.Read
import proofs.«149627_j22445499089175_1_alg».proof.Proof.ChannelArrays
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-- The flattened row of `(b, l)`. -/
abbrev flatRow (b : Fin 1024) (l : Fin 32) : Fin 32768 := ⟨b.val * 32 + l.val, by omega⟩

/-- Flattening reads entry `(32 b + l, k)` at `(b, l, k)`. -/
theorem flatten_apply {α : Type} (a : S1024x32x1024.Idx → α) (h : S1024x32x1024.ShapeCasts S32768x1024) (b : Fin 1024) (l : Fin 32) (k : Fin 1024) :
    shapeCast S32768x1024 a h (ix2 (flatRow b l) k) = a (ix3 b l k) :=
  shapeCast_apply a h (ix2 (flatRow b l) k) (ix3 b l k) (by
    rw [Shape.rowMajor_val_three, Shape.rowMajor_val_two]
    show (b.val * 32 + l.val) * 1024 + k.val = (b.val * 32 + l.val) * 1024 + k.val
    rfl)

/-- Viewing a flattened array `[1024, 32, 1024]` again reads entry `(b, l, k)` at `(32 b + l, k)`. -/
theorem unflatten_apply {α : Type} (z : S32768x1024.Idx → α) (h : S32768x1024.ShapeCasts S1024x32x1024) (b : Fin 1024) (l : Fin 32) (k : Fin 1024) :
    shapeCast S1024x32x1024 z h (ix3 b l k) = z (ix2 (flatRow b l) k) :=
  shapeCast_apply z h (ix3 b l k) (ix2 (flatRow b l) k) (by
    rw [Shape.rowMajor_val_three, Shape.rowMajor_val_two]
    show (b.val * 32 + l.val) * 1024 + k.val = (b.val * 32 + l.val) * 1024 + k.val
    rfl)

/-- The program's second result at `(b, l, c)`: the noisy row of row `(b, l)` of the argument. -/
theorem outProb_apply (a1 : S1024x32x1024.Idx → EReal) (b : Fin 1024) (l : Fin 32) (c : Fin 1024) :
    Channel.outProb a1 (ix3 b l c) = Channel.probRow (fun k => a1 (ix3 b l k)) c := by
  unfold Channel.outProb
  rw [unflatten_apply]
  unfold Channel.probArr
  show Channel.probRow (fun k => shapeCast S32768x1024 a1 _ (ix2 (flatRow b l) k)) c = _
  simp only [flatten_apply]

/-- The reference's joined array at column 0. -/
theorem probs_col0 (a1 : S1024x32x1024.Idx → EReal) (b : Fin 1024) (l : Fin 32) :
    val_main_v30 (F := Ideal) a1 (ix3 b l (0 : Fin 1024)) = a1 (ix3 b l (0 : Fin 1024)) := by
  unfold val_main_v30
  refine (concatenate_pair_apply_left (t := S1024x32x1024) (s₁ := S1024x32x1) (s₂ := S1024x32x1023) (2 : Fin 3) (val_main_v29 (F := Ideal) a1) (val_main_v28 (F := Ideal) a1) concatenates_S1024x32x1_S1024x32x1023_S1024x32x1024_d2 (ix3 b l (0 : Fin 1024)) rfl
    (ix3 b l (0 : Fin 1)) (fun d => by match d with | ⟨0, _⟩ => rfl | ⟨1, _⟩ => rfl | ⟨2, _⟩ => rfl)).trans ?_
  rw [val_main_v29_apply]
  exact congrArg a1 (funext fun d => Fin.ext (by match d with | ⟨0, _⟩ => rfl | ⟨1, _⟩ => rfl | ⟨2, _⟩ => rfl))

/-- The reference's joined array at a free column. -/
theorem probs_free (a1 : S1024x32x1024.Idx → EReal) (b : Fin 1024) (l : Fin 32) (q : Fin 1023) :
    val_main_v30 (F := Ideal) a1 (ix3 b l q.succ)
      = a1 (ix3 b l q.succ) * Channel.cKeep + ((Channel.cOne - a1 (ix3 b l q.succ)) - a1 (ix3 b l (0 : Fin 1024))) * Channel.cRep := by
  unfold val_main_v30
  refine (concatenate_pair_apply_right (t := S1024x32x1024) (s₁ := S1024x32x1) (s₂ := S1024x32x1023) (2 : Fin 3) (val_main_v29 (F := Ideal) a1) (val_main_v28 (F := Ideal) a1) concatenates_S1024x32x1_S1024x32x1023_S1024x32x1024_d2 (ix3 b l q.succ) rfl rfl
    (ix3 b l q) (fun d hd => by
      match d with
      | ⟨0, _⟩ => rfl
      | ⟨1, _⟩ => rfl
      | ⟨2, _⟩ => exact absurd rfl hd)
    (by show q.val + 1 = q.val + 1; rfl)).trans ?_
  have e25 : idx_main_v25 (ix3 b l q) = ix3 b l q.succ :=
    funext fun d => Fin.ext (by match d with | ⟨0, _⟩ => rfl | ⟨1, _⟩ => rfl | ⟨2, _⟩ => (show 1 + q.val = q.val + 1; omega))
  have e17 : idx_main_v17 (ix3 b l q) = ix3 b l q.succ :=
    funext fun d => Fin.ext (by match d with | ⟨0, _⟩ => rfl | ⟨1, _⟩ => rfl | ⟨2, _⟩ => (show 1 + q.val = q.val + 1; omega))
  have e20 : idx_main_v20 (idx_main_v21 (ix3 b l q)) = ix3 b l (0 : Fin 1024) :=
    funext fun d => Fin.ext (by match d with | ⟨0, _⟩ => rfl | ⟨1, _⟩ => rfl | ⟨2, _⟩ => rfl)
  rw [val_main_v28_apply, val_main_v27_apply, val_main_v26_apply, val_main_v25_apply, val_main_v24_apply, val_main_v23_apply, val_main_v22_apply,
    val_main_v21_apply, val_main_v20_apply, val_main_v19_apply, val_main_v18_apply, val_main_v17_apply,
    val_main_cst_2_apply, val_main_cst_3_apply, val_main_cst_4_apply, e25, e17, e20]
  rfl

/-- The reference's second result is the program's second result as a function of the argument. -/
theorem prob_result_eq (a1 : S1024x32x1024.Idx → EReal) : val_main_v30 (F := Ideal) a1 = Channel.outProb a1 := by
  funext i
  obtain ⟨b, l, c, rfl⟩ : ∃ (b : Fin 1024) (l : Fin 32) (c : Fin 1024), i = ix3 b l c := ⟨i 0, i 1, i 2, eq_ix3 i⟩
  rw [outProb_apply]
  refine Fin.cases ?_ (fun q => ?_) c
  · rw [probs_col0, Channel.probRow_zero]
  · rw [probs_free, Channel.probRow_succ]

end Cert.ReferenceIdeal.RefValue

end
-- ==== Proof.lean ====
/-
  The symmetric channel with sampled noise: a Pallas kernel over row blocks of the flattened arrays against the plain
  jnp reference, equal on the extended reals.

  Both programs compute, for every row of 1024 symbols with a reserved column 0,
    noisy message   q ≥ 1 :  x q + ((Σ x·w) · a − (x q · w q) · b),      column 0 kept,
    noisy probs     q ≥ 1 :  y q · κ + ((1 − y q) − y 0) · ρ,            column 0 kept,
  with the same rounded constants `a, b, κ, ρ` on both sides (`Channel.msgRow`, `Channel.probRow`). They differ in layout
  only: the kernel pads the mask with a false column 0 and sums the masked values over all 1024 columns, where the
  reference slices off column 0, sums over the 1023 free columns from a zero start and joins column 0 back on; the padded
  column contributes `x · 0 = 0`, and `0 + s = s`, both of which hold for every extended real, so no finiteness is used.
  The kernel works on the arrays flattened to `[32768, 1024]` in blocks of 256 rows and views its results
  `[1024, 32, 1024]` again; the reference's probabilities are computed on the three-axis array directly.

  The kernel side: the stored values entry by entry (Proof/Body.lean), each point's block as a block of one
  whole-array function and the cover (Proof/Blocks.lean), the staged arrays from the arguments
  (Proof/EntryArrays.lean), the host lines after the launch and the run (Proof/KernelRun.lean). The reference side: its
  generated run read one operation at a time into the same two functions of the arguments (Proof/RefMessages.lean,
  Proof/RefProbabilities.lean). The frames are the generated ones; nothing was rewritten by the idealization.
-/
import proofs.«149627_j22445499089175_1_alg».proof.Defs
import proofs.«149627_j22445499089175_1_alg».proof.Proof.Gen.Kernel
import proofs.«149627_j22445499089175_1_alg».proof.Proof.Gen.Kernel.Frame
import proofs.«149627_j22445499089175_1_alg».proof.Proof.Gen.KernelIdeal
import proofs.«149627_j22445499089175_1_alg».proof.Proof.Gen.KernelIdeal.Frame
import proofs.«149627_j22445499089175_1_alg».proof.Proof.Gen.ReferenceIdeal
import proofs.«149627_j22445499089175_1_alg».proof.Proof.Gen.Pre_finite_inputs
import proofs.«149627_j22445499089175_1_alg».proof.Proof.Gen.ReferenceIdeal.Run
import proofs.«149627_j22445499089175_1_alg».proof.Proof.Gen.ReferenceIdeal.Read
import proofs.«149627_j22445499089175_1_alg».proof.Proof.KernelRun
import proofs.«149627_j22445499089175_1_alg».proof.Proof.RefMessages
import proofs.«149627_j22445499089175_1_alg».proof.Proof.RefProbabilities
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- Both runs end with the first result at `Channel.outMsg` of the messages and the mask, the second at
    `Channel.outProb` of the probabilities, and the arguments passed through. -/
theorem algebraic : Cert.algebraic_KernelIdeal_ReferenceIdeal := by
  intro m ρ m' ρ' _ hagree
  refine ⟨fun c => Cert.Channel.outMsg (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.Channel.outProb (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    Cert.KernelIdeal.RunValue.run m ρ, ?_⟩
  refine (θ_run Cert.ReferenceIdeal.defs _ _).mono (fun _ h c => ?_) (Cert.ReferenceIdeal.Value.run (F := Ideal) m' ρ')
  obtain ⟨h16, h30, h0, h1, -, -, h2⟩ := h c
  obtain ⟨g0, g1, g2⟩ := hagree c
  refine ⟨?_, ?_, h0.trans g0, h1.trans g1, h0, h1, h2⟩
  · rw [h16, Cert.ReferenceIdeal.Read.val_main_v16_eq, Cert.ReferenceIdeal.RefValue.msg_result_eq, g0, g2]
  · rw [h30, Cert.ReferenceIdeal.Read.val_main_v30_eq, Cert.ReferenceIdeal.RefValue.prob_result_eq, g1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
